-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x128x128 : Shape := ⟨4, ![16, 512, 128, 128]⟩
abbrev S16x128x128 : Shape := ⟨3, ![16, 128, 128]⟩
abbrev S_ : Shape := ⟨0, ![]⟩

class Facts : Prop where
  bcast_S_S16x512x128x128 : S_.BroadcastsInDim S16x512x128x128 (![] : Fin 0 → Fin S16x512x128x128.rank)
  reducesTo_S16x512x128x128_S_d0_1_2_3 : S16x512x128x128.ReducesTo [0, 1, 2, 3] S_
  h_S_ : 0 < S_.numel

variable [Facts]

def fn {F : FTy → Type} [FloatOps F] (main_arg0 : FVec F S16x512x128x128 .f32) (main_arg1 : IVec S16x128x128 32) : IVec S_ 1 :=
  let main_v0 : FVec F S16x512x128x128 .f32 := Host.absf main_arg0
  let main_cst : FVec F S_ .f32 := constant S_ .f32 0x7F800000#32
  let main_v1 : FVec F S16x512x128x128 .f32 := broadcastInDim S16x512x128x128 ![] bcast_S_S16x512x128x128 main_cst
  let main_v2 : IVec S16x512x128x128 1 := cmpf .olt main_v0 main_v1
  let main_c : IVec S_ 1 := constantI S_ 1 1#1
  let main_v3 : IVec S_ 1 := (fun x v => Host.reduce IntOp.andi x v reducesTo_S16x512x128x128_S_d0_1_2_3 h_S_) main_v2 main_c
  main_v3
-- ==== Kernel.lean ====
abbrev S16x512x128x128 : Shape := ⟨4, ![16, 512, 128, 128]⟩
abbrev S16x128x128 : Shape := ⟨3, ![16, 128, 128]⟩
abbrev S16x16384 : Shape := ⟨2, ![16, 16384]⟩
abbrev S_ : Shape := ⟨0, ![]⟩
abbrev S16x16384x1 : Shape := ⟨3, ![16, 16384, 1]⟩
abbrev S1x1x19 : Shape := ⟨3, ![1, 1, 19]⟩
abbrev S16x16384x19 : Shape := ⟨3, ![16, 16384, 19]⟩
abbrev S16x19x16384 : Shape := ⟨3, ![16, 19, 16384]⟩
abbrev S16x1x16384 : Shape := ⟨3, ![16, 1, 16384]⟩
abbrev S16x19 : Shape := ⟨2, ![16, 19]⟩
abbrev S16x19x1 : Shape := ⟨3, ![16, 19, 1]⟩
abbrev S16x512x16384 : Shape := ⟨3, ![16, 512, 16384]⟩
abbrev S16x19x512 : Shape := ⟨3, ![16, 19, 512]⟩
abbrev S1x256x16384 : Shape := ⟨3, ![1, 256, 16384]⟩
abbrev S1x19x16384 : Shape := ⟨3, ![1, 19, 16384]⟩
abbrev S1x19x256 : Shape := ⟨3, ![1, 19, 256]⟩
abbrev S256x16384 : Shape := ⟨2, ![256, 16384]⟩
abbrev S19x16384 : Shape := ⟨2, ![19, 16384]⟩
abbrev S19x256 : Shape := ⟨2, ![19, 256]⟩
abbrev S16x512x19 : Shape := ⟨3, ![16, 512, 19]⟩
abbrev S16x512x19x1 : Shape := ⟨4, ![16, 512, 19, 1]⟩

abbrev nBuf : Space → Nat
  | .hbm => 43
  | .vmem => 5
  | .smem => 0
  | _ => 0

abbrev bufTy : (tb : Table) → Fin (tcTables nBuf tb) → BufTy
  | .hbm, ⟨0, _⟩ => ⟨S16x512x128x128, .f32⟩
  | .hbm, ⟨1, _⟩ => ⟨S16x128x128, .i32⟩
  | .hbm, ⟨2, _⟩ => ⟨S16x16384, .i32⟩
  | .hbm, ⟨3, _⟩ => ⟨S_, .i32⟩
  | .hbm, ⟨4, _⟩ => ⟨S16x16384, .i32⟩
  | .hbm, ⟨5, _⟩ => ⟨S16x16384, .i1⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S16x16384, .i32⟩
  | .hbm, ⟨10, _⟩ => ⟨S16x16384, .i32⟩
  | .hbm, ⟨11, _⟩ => ⟨S_, .i32⟩
  | .hbm, ⟨12, _⟩ => ⟨S16x16384, .i32⟩
  | .hbm, ⟨13, _⟩ => ⟨S16x16384, .i32⟩
  | .hbm, ⟨14, _⟩ => ⟨S16x16384x1, .i32⟩
  | .hbm, ⟨15, _⟩ => ⟨S1x1x19, .i32⟩
  | .hbm, ⟨16, _⟩ => ⟨S16x16384x19, .i32⟩
  | .hbm, ⟨17, _⟩ => ⟨S16x16384x19, .i32⟩
  | .hbm, ⟨18, _⟩ => ⟨S16x16384x19, .i1⟩
  | .hbm, ⟨19, _⟩ => ⟨S16x16384x19, .f32⟩
  | .hbm, ⟨20, _⟩ => ⟨S16x19x16384, .f32⟩
  | .hbm, ⟨21, _⟩ => ⟨S16x1x16384, .i1⟩
  | .hbm, ⟨22, _⟩ => ⟨S_, .f32⟩
  | .hbm, ⟨23, _⟩ => ⟨S_, .f32⟩
  | .hbm, ⟨24, _⟩ => ⟨S16x19x16384, .i1⟩
  | .hbm, ⟨25, _⟩ => ⟨S16x19x16384, .f32⟩
  | .hbm, ⟨26, _⟩ => ⟨S16x19x16384, .f32⟩
  | .hbm, ⟨27, _⟩ => ⟨S_, .f32⟩
  | .hbm, ⟨28, _⟩ => ⟨S16x19, .f32⟩
  | .hbm, ⟨29, _⟩ => ⟨S16x19x1, .f32⟩
  | .hbm, ⟨30, _⟩ => ⟨S_, .f32⟩
  | .hbm, ⟨31, _⟩ => ⟨S16x19x1, .f32⟩
  | .hbm, ⟨32, _⟩ => ⟨S16x19x1, .i1⟩
  | .hbm, ⟨33, _⟩ => ⟨S_, .f32⟩
  | .hbm, ⟨34, _⟩ => ⟨S_, .f32⟩
  | .hbm, ⟨35, _⟩ => ⟨S16x19x1, .f32⟩
  | .hbm, ⟨36, _⟩ => ⟨S16x19x1, .f32⟩
  | .hbm, ⟨37, _⟩ => ⟨S16x19x16384, .f32⟩
  | .hbm, ⟨38, _⟩ => ⟨S16x19x16384, .f32⟩
  | .hbm, ⟨39, _⟩ => ⟨S16x512x16384, .f32⟩
  | .hbm, ⟨40, _⟩ => ⟨S16x19x512, .f32⟩
  | .hbm, ⟨41, _⟩ => ⟨S16x512x19, .f32⟩
  | .hbm, ⟨42, _⟩ => ⟨S16x512x19x1, .f32⟩
  | .local _ .vmem, ⟨0, _⟩ => ⟨S1x256x16384, .f32⟩
  | .local _ .vmem, ⟨1, _⟩ => ⟨S1x256x16384, .f32⟩
  | .local _ .vmem, ⟨2, _⟩ => ⟨S1x19x16384, .f32⟩
  | .local _ .vmem, ⟨3, _⟩ => ⟨S1x19x256, .f32⟩
  | .local _ .vmem, ⟨4, _⟩ => ⟨S1x19x256, .f32⟩
  | _, _ => ⟨S16x512x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_c_1 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v3 : Ref sig .tc := ⟨.hbm, 13, rfl⟩
abbrev main_call1_v0 : Ref sig .tc := ⟨.hbm, 14, rfl⟩
abbrev main_call1_v1 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_call2_v0 : Ref sig .tc := ⟨.hbm, 23, rfl⟩
abbrev main_call2_v1 : Ref sig .tc := ⟨.hbm, 24, rfl⟩
abbrev main_call2_v2 : Ref sig .tc := ⟨.hbm, 25, rfl⟩
abbrev main_v7 : Ref sig .tc := ⟨.hbm, 26, rfl⟩
abbrev main_cst_2 : Ref sig .tc := ⟨.hbm, 27, rfl⟩
abbrev main_v8 : Ref sig .tc := ⟨.hbm, 28, rfl⟩
abbrev main_v9 : Ref sig .tc := ⟨.hbm, 29, rfl⟩
abbrev main_cst_3 : Ref sig .tc := ⟨.hbm, 30, rfl⟩
abbrev main_v10 : Ref sig .tc := ⟨.hbm, 31, rfl⟩
abbrev main_v11 : Ref sig .tc := ⟨.hbm, 32, rfl⟩
abbrev main_cst_4 : Ref sig .tc := ⟨.hbm, 33, rfl⟩
abbrev main_call3_v0 : Ref sig .tc := ⟨.hbm, 34, rfl⟩
abbrev main_call3_v1 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x19x16384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x19x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S16x128x128_S16x16384 : S16x128x128.ShapeCasts S16x16384
  bcast_S_S16x16384 : S_.BroadcastsInDim S16x16384 (![] : Fin 0 → Fin S16x16384.rank)
  bcast_S16x16384_S16x16384x1_0_1 : S16x16384.BroadcastsInDim S16x16384x1 (![0, 1] : Fin 2 → Fin S16x16384x1.rank)
  bcast_S16x16384x1_S16x16384x19_0_1_2 : S16x16384x1.BroadcastsInDim S16x16384x19 (![0, 1, 2] : Fin 3 → Fin S16x16384x19.rank)
  bcast_S1x1x19_S16x16384x19_0_1_2 : S1x1x19.BroadcastsInDim S16x16384x19 (![0, 1, 2] : Fin 3 → Fin S16x16384x19.rank)
  transposes_S16x16384x19_S16x19x16384_0_2_1 : S16x16384x19.Transposes [0, 2, 1] S16x19x16384
  bcast_S16x16384_S16x1x16384_0_2 : S16x16384.BroadcastsInDim S16x1x16384 (![0, 2] : Fin 2 → Fin S16x1x16384.rank)
  bcast_S16x1x16384_S16x19x16384_0_1_2 : S16x1x16384.BroadcastsInDim S16x19x16384 (![0, 1, 2] : Fin 3 → Fin S16x19x16384.rank)
  bcast_S_S16x19x16384 : S_.BroadcastsInDim S16x19x16384 (![] : Fin 0 → Fin S16x19x16384.rank)
  reducesTo_S16x19x16384_S16x19_d2 : S16x19x16384.ReducesTo [2] S16x19
  h_S_ : 0 < S_.numel
  bcast_S16x19_S16x19x1_0_1 : S16x19.BroadcastsInDim S16x19x1 (![0, 1] : Fin 2 → Fin S16x19x1.rank)
  bcast_S_S16x19x1 : S_.BroadcastsInDim S16x19x1 (![] : Fin 0 → Fin S16x19x1.rank)
  bcast_S16x19x1_S16x19x16384_0_1_2 : S16x19x1.BroadcastsInDim S16x19x16384 (![0, 1, 2] : Fin 3 → Fin S16x19x16384.rank)
  shapeCasts_S16x512x128x128_S16x512x16384 : S16x512x128x128.ShapeCasts S16x512x16384
  inb_S1x256x16384_S1x256x16384_0_0_0 : ∀ a, (![0, 0, 0] : Fin 3 → Nat) a + S1x256x16384.size a ≤ S1x256x16384.size a
  h_S1x256x16384 : 0 < S1x256x16384.numel
  shapeCasts_S1x256x16384_S256x16384 : S1x256x16384.ShapeCasts S256x16384
  inb_S1x19x16384_S1x19x16384_0_0_0 : ∀ a, (![0, 0, 0] : Fin 3 → Nat) a + S1x19x16384.size a ≤ S1x19x16384.size a
  h_S1x19x16384 : 0 < S1x19x16384.numel
  shapeCasts_S1x19x16384_S19x16384 : S1x19x16384.ShapeCasts S19x16384
  inb_S1x19x256_S1x19x256_0_0_0 : ∀ a, (![0, 0, 0] : Fin 3 → Nat) a + S1x19x256.size a ≤ S1x19x256.size a
  h_S1x19x256 : 0 < S1x19x256.numel
  shapeCasts_S1x19x256_S19x256 : S1x19x256.ShapeCasts S19x256
  shapeCasts_S19x256_S1x19x256 : S19x256.ShapeCasts S1x19x256
  transposes_S16x19x512_S16x512x19_0_2_1 : S16x19x512.Transposes [0, 2, 1] S16x512x19
  bcast_S16x512x19_S16x512x19x1_0_1_2 : S16x512x19.BroadcastsInDim S16x512x19x1 (![0, 1, 2] : Fin 3 → Fin S16x512x19x1.rank)
  dot_S19x16384_S256x16384_S19x256_1_1_0_0_n_n_wf : DotDims.WF S19x16384 S256x16384 S19x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x16384.size a ≤ S16x512x16384.size a
  hwx0_0 : ∀ i : grid0.Coords, EltTy.bits .f32 = 32 ∨ (Rect.block (s := S16x512x16384) S1x256x16384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x19x16384.size a ≤ S16x19x16384.size a
  hwx0_1 : ∀ i : grid0.Coords, EltTy.bits .f32 = 32 ∨ (Rect.block (s := S16x19x16384) S1x19x16384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x19x256.size a ≤ S16x19x512.size a
  hwx0_2 : ∀ i : grid0.Coords, EltTy.bits .f32 = 32 ∨ (Rect.block (s := S16x19x512) S1x19x256.size (cc0_transform_2 i) (hinb0_2 i)).WholeWords (EltTy.packing .f32)

variable [Facts₀]

def dot_S19x16384_S256x16384_S19x256_1_1_0_0_n_n : DotDims S19x16384 S256x16384 S19x256 where
  lhsContracting := [1]
  rhsContracting := [1]
  lhsNonContracting := [0]
  rhsNonContracting := [0]
  lhsBatch := []
  rhsBatch := []
  wf := dot_S19x16384_S256x16384_S19x256_1_1_0_0_n_n_wf

abbrev win0_0 : Pipeline.Window sig grid0 :=
  Pipeline.Window.ofSpec (Memref.whole main_v15) S1x256x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S1x19x16384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x19x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x512x128x128 : Shape := ⟨4, ![16, 512, 128, 128]⟩
abbrev S16x128x128 : Shape := ⟨3, ![16, 128, 128]⟩
abbrev S16x16384 : Shape := ⟨2, ![16, 16384]⟩
abbrev S_ : Shape := ⟨0, ![]⟩
abbrev S16x16384x1 : Shape := ⟨3, ![16, 16384, 1]⟩
abbrev S1x1x19 : Shape := ⟨3, ![1, 1, 19]⟩
abbrev S16x16384x19 : Shape := ⟨3, ![16, 16384, 19]⟩
abbrev S16x19x16384 : Shape := ⟨3, ![16, 19, 16384]⟩
abbrev S16x1x16384 : Shape := ⟨3, ![16, 1, 16384]⟩
abbrev S16x19 : Shape := ⟨2, ![16, 19]⟩
abbrev S16x19x1 : Shape := ⟨3, ![16, 19, 1]⟩
abbrev S16x512x16384 : Shape := ⟨3, ![16, 512, 16384]⟩
abbrev S16x19x512 : Shape := ⟨3, ![16, 19, 512]⟩
abbrev S16x512x19 : Shape := ⟨3, ![16, 512, 19]⟩
abbrev S16x512x19x1 : Shape := ⟨4, ![16, 512, 19, 1]⟩

abbrev nBuf : Space → Nat
  | .hbm => 43
  | .vmem => 0
  | .smem => 0
  | _ => 0

abbrev bufTy : (tb : Table) → Fin (tcTables nBuf tb) → BufTy
  | .hbm, ⟨0, _⟩ => ⟨S16x512x128x128, .f32⟩
  | .hbm, ⟨1, _⟩ => ⟨S16x128x128, .i32⟩
  | .hbm, ⟨2, _⟩ => ⟨S16x16384, .i32⟩
  | .hbm, ⟨3, _⟩ => ⟨S_, .i32⟩
  | .hbm, ⟨4, _⟩ => ⟨S16x16384, .i32⟩
  | .hbm, ⟨5, _⟩ => ⟨S16x16384, .i1⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S16x16384, .i32⟩
  | .hbm, ⟨10, _⟩ => ⟨S16x16384, .i32⟩
  | .hbm, ⟨11, _⟩ => ⟨S_, .i32⟩
  | .hbm, ⟨12, _⟩ => ⟨S16x16384, .i32⟩
  | .hbm, ⟨13, _⟩ => ⟨S16x16384, .i32⟩
  | .hbm, ⟨14, _⟩ => ⟨S16x16384x1, .i32⟩
  | .hbm, ⟨15, _⟩ => ⟨S1x1x19, .i32⟩
  | .hbm, ⟨16, _⟩ => ⟨S16x16384x19, .i32⟩
  | .hbm, ⟨17, _⟩ => ⟨S16x16384x19, .i32⟩
  | .hbm, ⟨18, _⟩ => ⟨S16x16384x19, .i1⟩
  | .hbm, ⟨19, _⟩ => ⟨S16x16384x19, .f32⟩
  | .hbm, ⟨20, _⟩ => ⟨S16x19x16384, .f32⟩
  | .hbm, ⟨21, _⟩ => ⟨S16x1x16384, .i1⟩
  | .hbm, ⟨22, _⟩ => ⟨S_, .f32⟩
  | .hbm, ⟨23, _⟩ => ⟨S_, .f32⟩
  | .hbm, ⟨24, _⟩ => ⟨S16x19x16384, .i1⟩
  | .hbm, ⟨25, _⟩ => ⟨S16x19x16384, .f32⟩
  | .hbm, ⟨26, _⟩ => ⟨S16x19x16384, .f32⟩
  | .hbm, ⟨27, _⟩ => ⟨S_, .f32⟩
  | .hbm, ⟨28, _⟩ => ⟨S16x19, .f32⟩
  | .hbm, ⟨29, _⟩ => ⟨S16x19x1, .f32⟩
  | .hbm, ⟨30, _⟩ => ⟨S_, .f32⟩
  | .hbm, ⟨31, _⟩ => ⟨S16x19x1, .f32⟩
  | .hbm, ⟨32, _⟩ => ⟨S16x19x1, .i1⟩
  | .hbm, ⟨33, _⟩ => ⟨S_, .f32⟩
  | .hbm, ⟨34, _⟩ => ⟨S_, .f32⟩
  | .hbm, ⟨35, _⟩ => ⟨S16x19x1, .f32⟩
  | .hbm, ⟨36, _⟩ => ⟨S16x19x1, .f32⟩
  | .hbm, ⟨37, _⟩ => ⟨S16x19x16384, .f32⟩
  | .hbm, ⟨38, _⟩ => ⟨S16x19x16384, .f32⟩
  | .hbm, ⟨39, _⟩ => ⟨S16x512x16384, .f32⟩
  | .hbm, ⟨40, _⟩ => ⟨S16x19x512, .f32⟩
  | .hbm, ⟨41, _⟩ => ⟨S16x512x19, .f32⟩
  | .hbm, ⟨42, _⟩ => ⟨S16x512x19x1, .f32⟩
  | _, _ => ⟨S16x512x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_c_1 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v3 : Ref sig .tc := ⟨.hbm, 13, rfl⟩
abbrev main_call1_v0 : Ref sig .tc := ⟨.hbm, 14, rfl⟩
abbrev main_call1_v1 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_call2_v0 : Ref sig .tc := ⟨.hbm, 23, rfl⟩
abbrev main_call2_v1 : Ref sig .tc := ⟨.hbm, 24, rfl⟩
abbrev main_call2_v2 : Ref sig .tc := ⟨.hbm, 25, rfl⟩
abbrev main_v7 : Ref sig .tc := ⟨.hbm, 26, rfl⟩
abbrev main_cst_2 : Ref sig .tc := ⟨.hbm, 27, rfl⟩
abbrev main_v8 : Ref sig .tc := ⟨.hbm, 28, rfl⟩
abbrev main_v9 : Ref sig .tc := ⟨.hbm, 29, rfl⟩
abbrev main_cst_3 : Ref sig .tc := ⟨.hbm, 30, rfl⟩
abbrev main_v10 : Ref sig .tc := ⟨.hbm, 31, rfl⟩
abbrev main_v11 : Ref sig .tc := ⟨.hbm, 32, rfl⟩
abbrev main_cst_4 : Ref sig .tc := ⟨.hbm, 33, rfl⟩
abbrev main_call3_v0 : Ref sig .tc := ⟨.hbm, 34, rfl⟩
abbrev main_call3_v1 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩

abbrev nD : Nat := 1
abbrev τ : Topo := Topo.v7x

variable {F : FTy → Type} [FloatOps F]

class Facts₀ : Prop where
  shapeCasts_S16x128x128_S16x16384 : S16x128x128.ShapeCasts S16x16384
  bcast_S_S16x16384 : S_.BroadcastsInDim S16x16384 (![] : Fin 0 → Fin S16x16384.rank)
  bcast_S16x16384_S16x16384x1_0_1 : S16x16384.BroadcastsInDim S16x16384x1 (![0, 1] : Fin 2 → Fin S16x16384x1.rank)
  bcast_S16x16384x1_S16x16384x19_0_1_2 : S16x16384x1.BroadcastsInDim S16x16384x19 (![0, 1, 2] : Fin 3 → Fin S16x16384x19.rank)
  bcast_S1x1x19_S16x16384x19_0_1_2 : S1x1x19.BroadcastsInDim S16x16384x19 (![0, 1, 2] : Fin 3 → Fin S16x16384x19.rank)
  transposes_S16x16384x19_S16x19x16384_0_2_1 : S16x16384x19.Transposes [0, 2, 1] S16x19x16384
  bcast_S16x16384_S16x1x16384_0_2 : S16x16384.BroadcastsInDim S16x1x16384 (![0, 2] : Fin 2 → Fin S16x1x16384.rank)
  bcast_S16x1x16384_S16x19x16384_0_1_2 : S16x1x16384.BroadcastsInDim S16x19x16384 (![0, 1, 2] : Fin 3 → Fin S16x19x16384.rank)
  bcast_S_S16x19x16384 : S_.BroadcastsInDim S16x19x16384 (![] : Fin 0 → Fin S16x19x16384.rank)
  reducesTo_S16x19x16384_S16x19_d2 : S16x19x16384.ReducesTo [2] S16x19
  h_S_ : 0 < S_.numel
  bcast_S16x19_S16x19x1_0_1 : S16x19.BroadcastsInDim S16x19x1 (![0, 1] : Fin 2 → Fin S16x19x1.rank)
  bcast_S_S16x19x1 : S_.BroadcastsInDim S16x19x1 (![] : Fin 0 → Fin S16x19x1.rank)
  bcast_S16x19x1_S16x19x16384_0_1_2 : S16x19x1.BroadcastsInDim S16x19x16384 (![0, 1, 2] : Fin 3 → Fin S16x19x16384.rank)
  shapeCasts_S16x512x128x128_S16x512x16384 : S16x512x128x128.ShapeCasts S16x512x16384
  transposes_S16x19x512_S16x512x19_0_2_1 : S16x19x512.Transposes [0, 2, 1] S16x512x19
  bcast_S16x512x19_S16x512x19x1_0_1_2 : S16x512x19.BroadcastsInDim S16x512x19x1 (![0, 1, 2] : Fin 3 → Fin S16x512x19x1.rank)
  dot_S16x19x16384_S16x512x16384_S16x19x512_2_2_1_1_0_0_wf : DotDims.WF S16x19x16384 S16x512x16384 S16x19x512 [2] [2] [1] [1] [0] [0]

variable [Facts₀]

def dot_S16x19x16384_S16x512x16384_S16x19x512_2_2_1_1_0_0 : DotDims S16x19x16384 S16x512x16384 S16x19x512 where
  lhsContracting := [2]
  rhsContracting := [2]
  lhsNonContracting := [1]
  rhsNonContracting := [1]
  lhsBatch := [0]
  rhsBatch := [0]
  wf := dot_S16x19x16384_S16x512x16384_S16x19x512_2_2_1_1_0_0_wf

class Facts : Prop extends Facts₀ where

variable [Facts]
-- ==== Proof.LibDotNT.lean ====
/-
  A matrix product that contracts the LAST axis of both operands, [M,K] × [N,K] → [M,N] (the right operand used
  transposed: q·kᵀ, x·Wᵀ), accumulated into the zero matrix and read at (i, j) over the extended reals:
  the sum over k of l(i,k) · r(j,k).
-/
import Idealize.ShloMosaic.PureOps.Ideal.Laws
import Idealize.ShloMosaic.Lib.ValueIdx

namespace Idealize.ShloMosaic.ValueIdx

open Idealize.ShloMosaic

/-- A `tpu.matmul` with dimension numbers ⟨[1],[1],[0],[0],[],[]⟩ into the zero accumulator, at `(i, j)`, is
    `∑ k, l (i, k) * r (j, k)`. The record is any with those dimension numbers (`hr`, `hs`: its contraction shape has one
    axis of extent `K`; for a printed record both are `rfl`). -/
theorem matmul_nt_zero_apply {M N K : ℕ} {φ₁ φ₂ : FTy}
    (D : DotDims (⟨2, ![M, K]⟩ : Shape) ⟨2, ![N, K]⟩ ⟨2, ![M, N]⟩)
    (hlc : D.lhsContracting = [1]) (hrc : D.rhsContracting = [1])
    (hln : D.lhsNonContracting = [0]) (hrn : D.rhsNonContracting = [0])
    (hlb : D.lhsBatch = []) (hrb : D.rhsBatch = [])
    (hr : D.contr.rank = 1) (hs : D.contr.size ⟨0, by omega⟩ = K)
    (prec : Option ContractPrecision)
    (l : FVec Ideal (⟨2, ![M, K]⟩ : Shape) φ₁) (r : FVec Ideal (⟨2, ![N, K]⟩ : Shape) φ₂) (i : Fin M) (j : Fin N) :
    FloatOps.matmul D prec l r (constant (⟨2, ![M, N]⟩ : Shape) .f32 0x00000000#32) (ix2 i j)
      = ∑ k : Fin K, l (ix2 i k) * r (ix2 j k) := by
  rw [Ideal.matmul_constant_zero_apply, ← Equiv.sum_comp (contrEquiv1 D K hr hs).symm]
  refine Finset.sum_congr rfl fun k _ => ?_
  have hk := contrEquiv1_symm_val D K hr hs k
  have key : ∀ (p : ℕ) (hp : p < (⟨2, ![M, N]⟩ : Shape).rank) (q : Fin 2), p = q.val → ((ix2 i j) ⟨p, hp⟩).val = ((ix2 i j) q).val :=
    fun p hp q h => by subst h; rfl
  have el : D.lhsIdx (ix2 i j) ((contrEquiv1 D K hr hs).symm k) = ix2 i k := funext fun a => Fin.ext (by
    match a with
    | ⟨0, _⟩ =>
      unfold DotDims.lhsIdx
      rw [dif_neg (by rw [hlb]; exact List.not_mem_nil), dif_pos (by rw [hln]; exact List.mem_singleton.mpr rfl)]
      simp only [Fin.val_cast]
      exact key _ _ 0 (by simp [hlb, hln])
    | ⟨1, _⟩ => exact (D.lhsIdx_val_of_single hlc _ _).trans hk)
  have er : D.rhsIdx (ix2 i j) ((contrEquiv1 D K hr hs).symm k) = ix2 j k := funext fun a => Fin.ext (by
    match a with
    | ⟨0, _⟩ =>
      unfold DotDims.rhsIdx
      rw [dif_neg (by rw [hrb]; exact List.not_mem_nil), dif_pos (by rw [hrn]; exact List.mem_singleton.mpr rfl)]
      simp only [Fin.val_cast]
      exact key _ _ 1 (by simp [hlb, hln, hrn])
    | ⟨1, _⟩ => exact (D.rhsIdx_val_of_single hrc _ _).trans hk)
  rw [el, er]

end Idealize.ShloMosaic.ValueIdx
-- ==== Proof.BlockValue.lean ====
/-
  What the kernel's body stores, entry by entry.

  At a grid point the body holds a block `x1` of weights, [1, 19, 16384] (one image, all classes, all pixels), and a
  block `x0` of features, [1, 256, 16384] (one image, 256 channels, all pixels). It drops the leading unit axis of both,
  contracts the pixel axis of the two matrices into a zero accumulator, and puts the unit axis back. So the stored
  block's entry `(0, k, j)` is the sum over the pixels `n` of `x1 (0, k, n) * x0 (0, j, n)`.
-/
import proofs.«123771_j24910810317446_2_alg».proof.Proof.Gen.KernelIdeal.Skeleton
import proofs.«123771_j24910810317446_2_alg».proof.Proof.LibDotNT
import Idealize.ShloMosaic.Lib.ValueLayout

noncomputable section

namespace Cert.KernelIdeal.Pooling

open Cert.KernelIdeal Cert.KernelIdeal.Gen Idealize.ShloMosaic Idealize.ShloMosaic.ValueIdx

/-- The body's one stored value at entry `(u, k, j)` of its block (`u` ranges over the unit axis): the product of row `k`
    of the weight block with row `j` of the feature block, summed over the pixels. -/
theorem stored_apply (x0 : Vec Ideal S1x256x16384 .f32) (x1 : Vec Ideal S1x19x16384 .f32) (u : Fin 1) (k : Fin 19) (j : Fin 256) :
    k0_pay1 (F := Ideal) x0 x1 (ix3 u k j) = ∑ n : Fin 16384, x1 (ix3 (0 : Fin 1) k n) * x0 (ix3 (0 : Fin 1) j n) := by
  unfold k0_pay1
  refine (shapeCast_ab_1ab_apply _ shapeCasts_S19x256_S1x19x256 u k j).trans ?_
  refine (matmul_nt_zero_apply dot_S19x16384_S256x16384_S19x256_1_1_0_0_n_n rfl rfl rfl rfl rfl rfl rfl rfl (some .fp32) _ _ k j).trans ?_
  refine Finset.sum_congr rfl fun n _ => ?_
  rw [shapeCast_1ab_ab_apply x1 shapeCasts_S1x19x16384_S19x16384 k n, shapeCast_1ab_ab_apply x0 shapeCasts_S1x256x16384_S256x16384 j n]

end Cert.KernelIdeal.Pooling

end
-- ==== Proof.Pooled.lean ====
/-
  Class-conditional pooling as one function of two arrays.

  For a batch of 16 images with 16384 pixels each, `W` holds one weight per (image, class, pixel) and `X` one feature
  per (image, channel, pixel). The pooled feature of class `k` and channel `c` in image `b` is the weighted sum over
  the pixels,
      pooled W X (b, k, c) = Σ_n W (b, k, n) · X (b, c, n),
  a sum of products on the extended reals. Both programs compute this array: one by a batched contraction over the
  pixel axis, the other block by block, a block of 256 channels of one image at a time. Nothing here asks the entries to
  be finite: the two sides are the same sum of the same products, so no law beyond reindexing a finite sum is used.
-/
import Idealize.ShloMosaic.PureOps.Ideal
import Idealize.ShloMosaic.Lib.ValueIdx

noncomputable section

namespace Cert.Pooled

open Idealize.ShloMosaic Idealize.ShloMosaic.ValueIdx

/-- The pooled features: entry `(b, k, c)` is the sum over the pixels `n` of `W (b, k, n) * X (b, c, n)`. -/
def pooled (W : FVec Ideal (⟨3, ![16, 19, 16384]⟩ : Shape) .f32) (X : FVec Ideal (⟨3, ![16, 512, 16384]⟩ : Shape) .f32) :
    FVec Ideal (⟨3, ![16, 19, 512]⟩ : Shape) .f32 :=
  fun i => ∑ n : Fin 16384, W (ix3 (n0 := 16) (n1 := 19) (i 0) (i 1) n) * X (ix3 (n0 := 16) (n1 := 512) (i 0) (i 2) n)

/-- The entry at coordinates `(b, k, c)`. -/
theorem pooled_apply (W : FVec Ideal (⟨3, ![16, 19, 16384]⟩ : Shape) .f32) (X : FVec Ideal (⟨3, ![16, 512, 16384]⟩ : Shape) .f32)
    (b : Fin 16) (k : Fin 19) (c : Fin 512) :
    pooled W X (ix3 b k c) = ∑ n : Fin 16384, W (ix3 b k n) * X (ix3 b c n) := rfl

end Cert.Pooled

end
-- ==== Proof.ArrayValue.lean ====
/-
  From the blocks to the whole array.

  The grid is 16 × 2: point `t` has an image `b` and a half `h` of the 512 channels. At `t` the body is given the
  weight block of image `b` (all 19 classes, all pixels: block index (b, 0, 0) of the [16, 19, 16384] array), the feature
  block of image `b`, channels 256·h … 256·h + 255 (block index (b, h, 0) of the [16, 512, 16384] array), and writes back
  block (b, 0, h) of the [16, 19, 512] output. These relations between the three index maps are decided once over the 32
  points. With them the block entry (0, k, j) that point `t` writes — the sum over the pixels of weight (b, k, n) times
  feature (b, 256·h + j, n) — is entry (b, k, 256·h + j) of the pooled array of the two whole arrays, so each point writes
  its block of ONE whole-array function; the 32 blocks tile the output, so the output ends as that function.
-/
import proofs.«123771_j24910810317446_2_alg».proof.Proof.Gen.KernelIdeal.Frame
import proofs.«123771_j24910810317446_2_alg».proof.Proof.BlockValue
import proofs.«123771_j24910810317446_2_alg».proof.Proof.Pooled
import Idealize.ShloMosaic.Lib.Pipeline.Value

noncomputable section

namespace Cert.KernelIdeal.Pooling

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

theorem offsets_zero : (![0, 0, 0] : Fin 3 → Nat) = fun _ => 0 := funext fun a => by fin_cases a <;> rfl

/-- The three index maps over the grid: the feature block and the weight block are those of the output block's image;
    the feature block's channel half is the output block's; every other block index is zero; and the output's block
    indices stay inside 16 images and 2 halves. -/
theorem index_facts : ∀ t : Fin cfg0.N,
    win0_0.index t (0 : Fin 3) = win0_2.index t (0 : Fin 3)
    ∧ win0_0.index t (1 : Fin 3) = win0_2.index t (2 : Fin 3)
    ∧ win0_0.index t (2 : Fin 3) = 0
    ∧ win0_1.index t (0 : Fin 3) = win0_2.index t (0 : Fin 3)
    ∧ win0_1.index t (1 : Fin 3) = 0
    ∧ win0_1.index t (2 : Fin 3) = 0
    ∧ win0_2.index t (1 : Fin 3) = 0
    ∧ win0_2.index t (0 : Fin 3) ≤ 15
    ∧ win0_2.index t (2 : Fin 3) ≤ 1 :=
  (by decide +kernel : ∀ t : Fin grid0.N, _)

/-- Every (image, half) is some point's output block. -/
theorem index_onto : ∀ (q0 : Fin 16) (q2 : Fin 2), ∃ t : Fin cfg0.N, win0_2.index t = ![q0.val, 0, q2.val] :=
  (by decide +kernel : ∀ (q0 : Fin 16) (q2 : Fin 2), ∃ t : Fin grid0.N, win0_2.index t = ![q0.val, 0, q2.val])

/-- A stored block whose weight rows are rows of `W` for image `b` and whose feature rows are rows of `X` for image `b`
    and channel `cc` holds, at (u, k, j), the pooled entry (b, k, cc). -/
theorem stored_eq_pooled (W : FVec Ideal S16x19x16384 .f32) (X : FVec Ideal S16x512x16384 .f32)
    (x0 : Vec Ideal S1x256x16384 .f32) (x1 : Vec Ideal S1x19x16384 .f32)
    (b : Fin 16) (k : Fin 19) (cc : Fin 512) (u : Fin 1) (j : Fin 256)
    (h1 : ∀ n : Fin 16384, x1 (ix3 (0 : Fin 1) k n) = W (ix3 b k n))
    (h0 : ∀ n : Fin 16384, x0 (ix3 (0 : Fin 1) j n) = X (ix3 b cc n)) :
    k0_pay1 (F := Ideal) x0 x1 (ix3 u k j) = Cert.Pooled.pooled W X (ix3 b k cc) := by
  rw [stored_apply, Cert.Pooled.pooled_apply]
  exact Finset.sum_congr rfl fun n _ => by rw [h1 n, h0 n]

/-- What point `t` stores at entry `y` of its block is the pooled array of the two whole arrays, as the region finds
    them, at the array index under `y`. -/
theorem stored_entry (c : Dev nD) (t : Fin cfg0.N) (y : S1x19x256.Idx) :
    k0_pay1 (F := Ideal) (iblk m c 0 t) (iblk m c 1 t) y
      = Cert.Pooled.pooled (V m c main_v14) (V m c main_v15) (((cfg0.win 2).blk t).view.emb y) := by
  obtain ⟨u, k, j, rfl⟩ : ∃ (u : Fin 1) (k : Fin 19) (j : Fin 256), y = ix3 u k j := ⟨y 0, y 1, y 2, eq_ix3 y⟩
  obtain ⟨e00, e01, e02, e10, e11, e12, e21, b0, b2⟩ := index_facts t
  have hu : u.val = 0 := by have := u.isLt; omega
  have hk : k.val < 19 := k.isLt
  have hj : j.val < 256 := j.isLt
  have hb : win0_2.index t (0 : Fin 3) < 16 := by omega
  have hc : win0_2.index t (2 : Fin 3) * 256 + j.val < 512 := by omega
  -- the array index under the block entry: (image, class k, channel 256·half + j)
  have ei : ((cfg0.win 2).blk t).view.emb (ix3 u k j)
      = ix3 (⟨win0_2.index t (0 : Fin 3), hb⟩ : Fin 16) k (⟨win0_2.index t (2 : Fin 3) * 256 + j.val, hc⟩ : Fin 512) := by
    funext a; apply Fin.ext
    match a with
    | ⟨0, _⟩ => show win0_2.index t (0 : Fin 3) * 1 + 1 * u.val = win0_2.index t (0 : Fin 3); omega
    | ⟨1, _⟩ => show win0_2.index t (1 : Fin 3) * 19 + 1 * k.val = k.val; omega
    | ⟨2, _⟩ => show win0_2.index t (2 : Fin 3) * 256 + 1 * j.val = win0_2.index t (2 : Fin 3) * 256 + j.val; omega
  rw [ei]
  refine stored_eq_pooled (V m c main_v14) (V m c main_v15) (iblk m c 0 t) (iblk m c 1 t)
    ⟨win0_2.index t (0 : Fin 3), hb⟩ k ⟨win0_2.index t (2 : Fin 3) * 256 + j.val, hc⟩ u j (fun n => ?_) (fun n => ?_)
  · -- row k of the weight block is row (image, k) of the weight array
    have hn : n.val < 16384 := n.isLt
    show V m c main_v14 (((cfg0.win 1).blk t).view.emb (ix3 (0 : Fin 1) k n))
      = V m c main_v14 (ix3 (⟨win0_2.index t (0 : Fin 3), hb⟩ : Fin 16) k n)
    refine congrArg (V m c main_v14) ?_
    funext a; apply Fin.ext
    match a with
    | ⟨0, _⟩ => show win0_1.index t (0 : Fin 3) * 1 + 1 * 0 = win0_2.index t (0 : Fin 3); omega
    | ⟨1, _⟩ => show win0_1.index t (1 : Fin 3) * 19 + 1 * k.val = k.val; omega
    | ⟨2, _⟩ => show win0_1.index t (2 : Fin 3) * 16384 + 1 * n.val = n.val; omega
  · -- row j of the feature block is row (image, 256·half + j) of the feature array
    have hn : n.val < 16384 := n.isLt
    show V m c main_v15 (((cfg0.win 0).blk t).view.emb (ix3 (0 : Fin 1) j n))
      = V m c main_v15 (ix3 (⟨win0_2.index t (0 : Fin 3), hb⟩ : Fin 16) (⟨win0_2.index t (2 : Fin 3) * 256 + j.val, hc⟩ : Fin 512) n)
    refine congrArg (V m c main_v15) ?_
    funext a; apply Fin.ext
    match a with
    | ⟨0, _⟩ => show win0_0.index t (0 : Fin 3) * 1 + 1 * 0 = win0_2.index t (0 : Fin 3); omega
    | ⟨1, _⟩ => show win0_0.index t (1 : Fin 3) * 256 + 1 * j.val = win0_2.index t (2 : Fin 3) * 256 + j.val; omega
    | ⟨2, _⟩ => show win0_0.index t (2 : Fin 3) * 16384 + 1 * n.val = n.val; omega

/-- The output block is never clipped, so what is written back of a block is the block, entry by entry. -/
theorem cut_apply (t : Fin cfg0.N) (P : Vec Ideal S1x19x256 .f32) (y : ((cfg0.win 2).xblock (grid0.coords t)).Idx) :
    (cfg0.win 2).cut (grid0.coords t) P y = P y := rfl

/-- An array read through point `t`'s output block, at an entry, is the array at the index under that entry. -/
theorem read_blk_apply (t : Fin cfg0.N) (G : FVec Ideal S16x19x512 .f32) (y : ((cfg0.win 2).xblock (grid0.coords t)).Idx) :
    ((cfg0.win 2).blk t).view.read (Elt Ideal) G y = G (((cfg0.win 2).blk t).view.emb y) := rfl

/-- What point `t` writes back is block `t` of the pooled array of the weight and feature arrays as the region finds them. -/
theorem flushed_eq (c : Dev nD) (t : Fin cfg0.N) :
    (dats m 0 c).flushed 2 t
      = ((cfg0.win 2).blk t).view.read (Elt Ideal) (Cert.Pooled.pooled (V m c main_v14) (V m c main_v15)) := by
  show (cfg0.win 2).cut (grid0.coords t) ((dats m 0 c).after 2 t) = _
  rw [after0_2]
  unfold out0_2
  rw [View.canon_unit_zero offsets_zero]
  simp only [View.ld_unit_zero (S := S1x256x16384) offsets_zero, View.ld_unit_zero (S := S1x19x16384) offsets_zero]
  funext y
  exact (cut_apply t _ y).trans ((stored_entry m c t y).trans (read_blk_apply t _ y).symm)

/-- An index of the output array is in point `t`'s block iff each coordinate is in the block's range on its axis. -/
theorem mem_blk (t : Fin cfg0.N) (i : S16x19x512.Idx) :
    i ∈ ((cfg0.win 2).blk t).view.set ↔ ∀ a : Fin 3, win0_2.index t a * S1x19x256.size a ≤ (i a).val
      ∧ (i a).val < win0_2.index t a * S1x19x256.size a + S1x19x256.size a := by
  show i ∈ ((View.whole main_v16).slice (win0_2.rect t)).set ↔ _
  rw [View.set_slice_whole, Rect.mem_set_unit]
  exact Iff.rfl

/-- The blocks tile the output: index (b, k, c) lies in the block of the point with image `b` and half `c / 256`. -/
theorem covered (i : S16x19x512.Idx) :
    ∃ t : Fin cfg0.N, (cfg0.win 2).flush t = true ∧ i ∈ ((cfg0.win 2).blk t).view.set := by
  have hi0 : (i 0).val < 16 := (i 0).isLt
  have hi1 : (i 1).val < 19 := (i 1).isLt
  have hi2 : (i 2).val < 512 := (i 2).isLt
  obtain ⟨t, ht⟩ := index_onto ⟨(i 0).val, hi0⟩ ⟨(i 2).val / 256, by omega⟩
  have q0 : win0_2.index t (0 : Fin 3) = (i 0).val := congrFun ht 0
  have q1 : win0_2.index t (1 : Fin 3) = 0 := congrFun ht 1
  have q2 : win0_2.index t (2 : Fin 3) = (i 2).val / 256 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 19 ≤ (i 1).val ∧ (i 1).val < win0_2.index t (1 : Fin 3) * 19 + 19; omega
  | ⟨2, _⟩ => show win0_2.index t (2 : Fin 3) * 256 ≤ (i 2).val ∧ (i 2).val < win0_2.index t (2 : Fin 3) * 256 + 256; omega

/-- The output array after the run is the pooled array of the weight and feature arrays as the region finds them. -/
theorem final (c : Dev nD) :
    (dats m 0 c).arrAt 2 cfg0.N = Cert.Pooled.pooled (V m c main_v14) (V m c main_v15) :=
  (dats m 0 c).arrAt_eq_of_cover 2 (Cert.Pooled.pooled (V m c main_v14) (V m c main_v15))
    (fun t _ => flushed_eq m c t) covered

end Cert.KernelIdeal.Pooling

end
-- ==== Proof.LibDotBatchT.lean ====
/-
  A batched matrix product against a TRANSPOSED right operand, read at an entry: for rank-three operands
  [B, M, K] × [B, N, K] → [B, M, N] whose dimension numbers pair axis 0 of both operands as the batch axis and
  contract axis 2 of the left operand with axis 2 of the right one (rows against rows: `q · kᵀ`), the sum over the
  record's contraction index is the sum over `k : Fin K` of left entry `(e, r, k)` times right entry `(e, c, k)`.
  The coordinate facts about the record's operand indices are hypotheses; for a record with literal dimension
  lists each is decided or the library's single-axis lemma. The host's product (`dotGeneral_ix3`) and the kernel's
  product into a zero accumulator (`matmul_ix3`) are both that sum.
-/
import Mathlib
import Idealize.ShloMosaic.Lib.ValueIdx
import Idealize.ShloMosaic.PureOps.Ideal.Laws

namespace Cert.LibDotBatchT

open Idealize.ShloMosaic Idealize.ShloMosaic.ValueIdx

/-- The coordinate facts of a batched rows-by-rows product's dimension numbers. -/
structure BatchedT {B M K N : Nat} (d : DotDims ⟨3, ![B, M, K]⟩ ⟨3, ![B, N, K]⟩ ⟨3, ![B, M, N]⟩) : Prop where
  hrank : d.contr.rank = 1
  hs : d.contr.size ⟨0, by omega⟩ = K
  hl0 : ∀ j k, (d.lhsIdx j k 0).val = (j 0).val
  hl1 : ∀ j k, (d.lhsIdx j k 1).val = (j 1).val
  hl2 : ∀ j k, (d.lhsIdx j k 2).val = (k ⟨0, by omega⟩).val
  hr0 : ∀ j k, (d.rhsIdx j k 0).val = (j 0).val
  hr1 : ∀ j k, (d.rhsIdx j k 1).val = (j 2).val
  hr2 : ∀ j k, (d.rhsIdx j k 2).val = (k ⟨0, by omega⟩).val

theorem dot_sum {B M K N : Nat} {d : DotDims ⟨3, ![B, M, K]⟩ ⟨3, ![B, N, K]⟩ ⟨3, ![B, M, N]⟩} (hd : BatchedT d)
    (lhs : (⟨3, ![B, M, K]⟩ : Shape).Idx → EReal) (rhs : (⟨3, ![B, N, K]⟩ : Shape).Idx → EReal)
    (e : Fin B) (r : Fin M) (c : Fin N) :
    ∑ k : d.contr.Idx, lhs (d.lhsIdx (ix3 e r c) k) * rhs (d.rhsIdx (ix3 e r c) k)
      = ∑ k : Fin K, lhs (ix3 e r k) * rhs (ix3 e c k) := by
  rw [← Equiv.sum_comp (contrEquiv1 d K hd.hrank hd.hs).symm]
  refine Finset.sum_congr rfl fun k _ => ?_
  have ek := contrEquiv1_symm_val d K hd.hrank hd.hs k
  have el : d.lhsIdx (ix3 e r c) ((contrEquiv1 d K hd.hrank hd.hs).symm k) = ix3 e r k := by
    funext a; apply Fin.ext
    match a with
    | ⟨0, _⟩ => exact hd.hl0 _ _
    | ⟨1, _⟩ => exact hd.hl1 _ _
    | ⟨2, _⟩ => exact (hd.hl2 _ _).trans ek
  have er : d.rhsIdx (ix3 e r c) ((contrEquiv1 d K hd.hrank hd.hs).symm k) = ix3 e c k := by
    funext a; apply Fin.ext
    match a with
    | ⟨0, _⟩ => exact hd.hr0 _ _
    | ⟨1, _⟩ => exact hd.hr1 _ _
    | ⟨2, _⟩ => exact (hd.hr2 _ _).trans ek
  rw [el, er]

/-- The host's batched product against a transposed right operand, at entry (e, r, c). -/
theorem dotGeneral_ix3 {B M K N : Nat} {d : DotDims ⟨3, ![B, M, K]⟩ ⟨3, ![B, N, K]⟩ ⟨3, ![B, M, N]⟩} (hd : BatchedT d)
    {φ₁ φ₂ : FTy} (prec : Option ContractPrecision) (a : FVec Ideal ⟨3, ![B, M, K]⟩ φ₁) (b : FVec Ideal ⟨3, ![B, N, K]⟩ φ₂)
    (e : Fin B) (r : Fin M) (c : Fin N) :
    Host.dotGeneral d prec a b (ix3 e r c) = ∑ k : Fin K, a (ix3 e r k) * b (ix3 e c k) :=
  (Ideal.dotGeneral_apply d prec _ a b (ix3 e r c)).trans (dot_sum hd a b e r c)

/-- The kernel's batched product against a transposed right operand into a zero accumulator, at entry (e, r, c). -/
theorem matmul_ix3 {B M K N : Nat} {d : DotDims ⟨3, ![B, M, K]⟩ ⟨3, ![B, N, K]⟩ ⟨3, ![B, M, N]⟩} (hd : BatchedT d)
    {φ₁ φ₂ : FTy} (prec : Option ContractPrecision) (a : FVec Ideal ⟨3, ![B, M, K]⟩ φ₁) (b : FVec Ideal ⟨3, ![B, N, K]⟩ φ₂)
    (e : Fin B) (r : Fin M) (c : Fin N) :
    matmul d prec a b (constant ⟨3, ![B, M, N]⟩ .f32 0x00000000#32) (ix3 e r c) = ∑ k : Fin K, a (ix3 e r k) * b (ix3 e c k) :=
  (Ideal.matmul_constant_zero_apply d prec a b (ix3 e r c)).trans (dot_sum hd a b e r c)

end Cert.LibDotBatchT
-- ==== Proof.RefValue.lean ====
/-
  The reference, read as a value.

  The reference turns the label map into pooling weights and contracts them against the features:
  * `labels`: the [16, 128, 128] label map flattened to [16, 16384] (one row of pixels per image);
  * `valid`: a pixel counts unless its label is the ignore label 255;
  * `clipped`: the label clamped to the classes 0 … 18;
  * `oneHot`: 1.0 where the clamped label is the class, else 0.0, as [16, 16384, 19];
  * `masked`: the one-hot array transposed to [16, 19, 16384], zeroed at invalid pixels;
  * `count`: per image and class the sum of `masked` over the pixels, kept as [16, 19, 1];
  * `weights`: `masked` divided by the count, or by 1 where the count is not positive;
  * `features`: the [16, 512, 128, 128] feature map flattened to [16, 512, 16384].
  Then `dot_general` contracts the pixel axis of `weights` [16, 19, 16384] and of the flattened features [16, 512, 16384],
  image by image: entry (b, k, c) is Σ_n weights (b, k, n) · features (b, c, n) — the pooled features (`pooled`). The
  result is transposed to [16, 512, 19] and given a trailing unit axis (`tail`).
  The weights and the tail are never opened: the kernel's program applies the same operations to the same arguments, so
  both are carried as functions.
-/
import proofs.«123771_j24910810317446_2_alg».proof.Proof.RefRunP
import proofs.«123771_j24910810317446_2_alg».proof.Proof.LibDotBatchT
import proofs.«123771_j24910810317446_2_alg».proof.Proof.Pooled

noncomputable section

namespace Cert.ReferenceIdeal.Pooling

open Cert.ReferenceIdeal Cert.ReferenceIdeal.Gen Idealize.ShloMosaic Idealize.ShloMosaic.TcCoe Idealize.SL.Sem Idealize.ShloMosaic.ValueIdx

/-! ## The pooling weights, stage by stage -/

/-- The label map with its two pixel axes merged. -/
def labels (x1 : (⟨S16x128x128, .i32⟩ : BufTy).Contents (Elt Ideal)) : (⟨S16x16384, .i32⟩ : BufTy).Contents (Elt Ideal) :=
  shapeCast _ x1 shapeCasts_S16x128x128_S16x16384

/-- A pixel is valid unless its label is 255. -/
def valid (x1 : (⟨S16x128x128, .i32⟩ : BufTy).Contents (Elt Ideal)) : (⟨S16x16384, .i1⟩ : BufTy).Contents (Elt Ideal) :=
  cmpi .ne (labels x1) (broadcastInDim S16x16384 ![] bcast_S_S16x16384 (constantI S_ 32 255#32))

/-- The label clamped into 0 … 18. -/
def clipped (x1 : (⟨S16x128x128, .i32⟩ : BufTy).Contents (Elt Ideal)) : (⟨S16x16384, .i32⟩ : BufTy).Contents (Elt Ideal) :=
  minsi (broadcastInDim S16x16384 ![] bcast_S_S16x16384 (id (constantI S_ 32 18#32))) (maxsi (broadcastInDim S16x16384 ![] bcast_S_S16x16384 (id (constantI S_ 32 0#32))) (labels x1))

/-- One-hot classes per pixel: 1.0 at (b, n, k) when pixel n of image b has clamped label k. -/
def oneHot (x1 : (⟨S16x128x128, .i32⟩ : BufTy).Contents (Elt Ideal)) : (⟨S16x16384x19, .f32⟩ : BufTy).Contents (Elt Ideal) :=
  uitofp (F := Ideal) .f32 (cmpi .eq (broadcastInDim S16x16384x19 ![0, 1, 2] bcast_S16x16384x1_S16x16384x19_0_1_2 (broadcastInDim S16x16384x1 ![0, 1] bcast_S16x16384_S16x16384x1_0_1 (clipped x1))) (broadcastInDim S16x16384x19 ![0, 1, 2] bcast_S1x1x19_S16x16384x19_0_1_2 (iotaInDim S1x1x19 32 2)))

/-- The one-hot array as [image, class, pixel], zero at invalid pixels. -/
def masked (x1 : (⟨S16x128x128, .i32⟩ : BufTy).Contents (Elt Ideal)) : (⟨S16x19x16384, .f32⟩ : BufTy).Contents (Elt Ideal) :=
  select (broadcastInDim S16x19x16384 ![0, 1, 2] bcast_S16x1x16384_S16x19x16384_0_1_2 (broadcastInDim S16x1x16384 ![0, 2] bcast_S16x16384_S16x1x16384_0_2 (valid x1))) (transpose S16x19x16384 [0, 2, 1] (oneHot x1) transposes_S16x16384x19_S16x19x16384_0_2_1) (broadcastInDim S16x19x16384 ![] bcast_S_S16x19x16384 (id (constant (F := Ideal) S_ .f32 0x00000000#32)))

/-- The number of valid pixels of each class in each image, as a float, with a trailing unit axis. -/
def count (x1 : (⟨S16x128x128, .i32⟩ : BufTy).Contents (Elt Ideal)) : (⟨S16x19x1, .f32⟩ : BufTy).Contents (Elt Ideal) :=
  broadcastInDim S16x19x1 ![0, 1] bcast_S16x19_S16x19x1_0_1 (Host.reduceAdd (F := Ideal) (masked x1) (constant (F := Ideal) S_ .f32 0x00000000#32) reducesTo_S16x19x16384_S16x19_d2 h_S_)

/-- The mean-pooling weights: each class's mask divided by its pixel count (by 1 for a class with no pixel). -/
def weights (x1 : (⟨S16x128x128, .i32⟩ : BufTy).Contents (Elt Ideal)) : (⟨S16x19x16384, .f32⟩ : BufTy).Contents (Elt Ideal) :=
  Host.divf (F := Ideal) (masked x1) (broadcastInDim S16x19x16384 ![0, 1, 2] bcast_S16x19x1_S16x19x16384_0_1_2 (select (cmpf (F := Ideal) .ogt (count x1) (broadcastInDim S16x19x1 ![] bcast_S_S16x19x1 (constant (F := Ideal) S_ .f32 0x00000000#32))) (count x1) (broadcastInDim S16x19x1 ![] bcast_S_S16x19x1 (id (constant (F := Ideal) S_ .f32 0x3F800000#32)))))

/-- The feature map with its two pixel axes merged: [16, 512, 128, 128] read as [16, 512, 16384]. -/
def features (x0 : (⟨S16x512x128x128, .f32⟩ : BufTy).Contents (Elt Ideal)) : (⟨S16x512x16384, .f32⟩ : BufTy).Contents (Elt Ideal) :=
  shapeCast _ x0 shapeCasts_S16x512x128x128_S16x512x16384

/-- What both programs do to the pooled [16, 19, 512] array last: swap the class and channel axes, add a unit axis. -/
def tail (v : (⟨S16x19x512, .f32⟩ : BufTy).Contents (Elt Ideal)) : (⟨S16x512x19x1, .f32⟩ : BufTy).Contents (Elt Ideal) :=
  broadcastInDim S16x512x19x1 ![0, 1, 2] bcast_S16x512x19_S16x512x19x1_0_1_2 (transpose S16x512x19 [0, 2, 1] v transposes_S16x19x512_S16x512x19_0_2_1)

/-! ## The contraction is the pooled sum -/

/-- The contraction's dimension numbers: axis 0 of both operands is the batch, axis 2 of both is contracted, so the left
    operand is read at (batch, row, k) and the right at (batch, column, k). -/
theorem dims_batchedT : Cert.LibDotBatchT.BatchedT (B := 16) (M := 19) (K := 16384) (N := 512) dot_S16x19x16384_S16x512x16384_S16x19x512_2_2_1_1_0_0 where
  hrank := rfl
  hs := rfl
  hl0 := fun j k => by
    unfold DotDims.lhsIdx
    rw [dif_pos (show (0 : Fin S16x19x16384.rank) ∈ dot_S16x19x16384_S16x512x16384_S16x19x512_2_2_1_1_0_0.lhsBatch by decide)]
    rfl
  hl1 := fun j k => by
    unfold DotDims.lhsIdx
    rw [dif_neg (show ¬(1 : Fin S16x19x16384.rank) ∈ dot_S16x19x16384_S16x512x16384_S16x19x512_2_2_1_1_0_0.lhsBatch by decide),
      dif_pos (show (1 : Fin S16x19x16384.rank) ∈ dot_S16x19x16384_S16x512x16384_S16x19x512_2_2_1_1_0_0.lhsNonContracting by decide)]
    rfl
  hl2 := fun j k => dot_S16x19x16384_S16x512x16384_S16x19x512_2_2_1_1_0_0.lhsIdx_val_of_single rfl j k
  hr0 := fun j k => by
    unfold DotDims.rhsIdx
    rw [dif_pos (show (0 : Fin S16x512x16384.rank) ∈ dot_S16x19x16384_S16x512x16384_S16x19x512_2_2_1_1_0_0.rhsBatch by decide)]
    rfl
  hr1 := fun j k => by
    unfold DotDims.rhsIdx
    rw [dif_neg (show ¬(1 : Fin S16x512x16384.rank) ∈ dot_S16x19x16384_S16x512x16384_S16x19x512_2_2_1_1_0_0.rhsBatch by decide),
      dif_pos (show (1 : Fin S16x512x16384.rank) ∈ dot_S16x19x16384_S16x512x16384_S16x19x512_2_2_1_1_0_0.rhsNonContracting by decide)]
    rfl
  hr2 := fun j k => dot_S16x19x16384_S16x512x16384_S16x19x512_2_2_1_1_0_0.rhsIdx_val_of_single rfl j k

/-- The reference's contraction of any weights against any features is their pooled array, entry by entry. -/
theorem dotGeneral_eq_pooled (W : FVec Ideal S16x19x16384 .f32) (X : FVec Ideal S16x512x16384 .f32) :
    Host.dotGeneral dot_S16x19x16384_S16x512x16384_S16x19x512_2_2_1_1_0_0 none W X = Cert.Pooled.pooled W X := by
  funext i
  obtain ⟨b, k, c, rfl⟩ : ∃ (b : Fin 16) (k : Fin 19) (c : Fin 512), i = ix3 b k c := ⟨i 0, i 1, i 2, eq_ix3 i⟩
  exact Cert.LibDotBatchT.dotGeneral_ix3 dims_batchedT none W X b k c

/-! ## The reference's run -/

/-- Every weakly fair execution of the reference terminates with its result at `tail` of the pooled features of the
    weights of the label map and the flattened feature map, and its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v18)
        = tail (Cert.Pooled.pooled (weights (m ((c.tc : Thread nD τ).loc main_arg1)))
            (features (m ((c.tc : Thread nD τ).loc main_arg0))))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (by rw [← dotGeneral_eq_pooled]; rfl), (h c).2⟩)
    (Cert.ReferenceIdeal.ValueP.run (F := Ideal) m ρ)

end Cert.ReferenceIdeal.Pooling

end
-- ==== Proof.KernelRun.lean ====
/-
  The kernel's program, read as a value.

  Around its one grid of block computations the program does, before it, the same operations on its arguments as the
  reference — the pooling weights from the label map, the feature map flattened — and, after it, the same two
  operations on the [16, 19, 512] output — the class and channel axes swapped, a unit axis added. So:
  * when the grid starts, the weight array it reads is `weights` of the label map and the feature array is `features`
    of the feature map (read off the host operations before the grid, none of which is opened);
  * the output array after the grid is the pooled array of those two (the blocks tile it);
  * the program's result is `tail` of that array (read off the two host operations after the grid).
  The arguments are never written.
-/
import proofs.«123771_j24910810317446_2_alg».proof.Proof.ArrayValue
import proofs.«123771_j24910810317446_2_alg».proof.Proof.RefValue
import Idealize.ShloMosaic.Lib.StableHlo.Run

noncomputable section

namespace Cert.KernelIdeal.Pooling

open Cert.KernelIdeal Cert.KernelIdeal.Gen Idealize.ShloMosaic Idealize.ShloMosaic.TcCoe Idealize.SL.Sem Idealize.ShloMosaic.StableHlo
open Cert.ReferenceIdeal.Pooling (weights features tail)

variable (m : (ℓ : Loc nD τ sig) → Buf (Elt Ideal) ℓ) (ρ : Dev nD → PrngReg)

/-- The feature array the grid reads is the feature map with its pixel axes merged. -/
theorem features_entry (c : Dev nD) :
    (V m c main_v15 : S16x512x16384.Idx → EReal) = features (m ((c : Thread nD τ).loc main_arg0)) := by
  dsimp only [V, V0]
  simp only [hostOps0, hostOps0_1, hostOps0_2, hostOps0_3, hostOps0_4, hostOps0_5, hostOps0_6, hostOps0_7, List.flatten_cons, List.flatten_nil, List.append_nil, List.cons_append, List.nil_append]
  after_results
  rfl

-- thirty-five operations, several of whose results are read more than once: each is visited once; the two sides are then
-- one term, nested as deep as the operations are chained, compared node by node
set_option maxRecDepth 65536 in
set_option maxHeartbeats 2000000 in
/-- The weight array the grid reads is the pooling weights of the label map: the operations before the grid are the
    reference's own. -/
theorem weights_entry (c : Dev nD) :
    (V m c main_v14 : S16x19x16384.Idx → EReal) = weights (m ((c : Thread nD τ).loc main_arg1)) := by
  dsimp only [V, V0]
  simp only [hostOps0, hostOps0_1, hostOps0_2, hostOps0_3, hostOps0_4, hostOps0_5, hostOps0_6, hostOps0_7, List.flatten_cons, List.flatten_nil, List.append_nil, List.cons_append, List.nil_append]
  after_results_simp <;> rfl

/-- The program's result is the output array after the grid with its class and channel axes swapped and a unit axis added. -/
theorem tail_result (c : Dev nD) :
    Pipeline.afterTail₀ cfgs (dats m) 0 (V0 m) [hostOps1] c main_v18 = tail ((dats m 0 c).arrAt 2 cfg0.N) := by
  unfold Pipeline.afterTail₀
  show StableHlo.after hostOps1 _ (Proc.devRef .tc main_v18) = _
  after_results
  exact congrArg tail
    (Pipeline.withArrays_arr spec0 launch0.win.arr_inj c (V0 m c) (fun w => (dats m 0 c).arrAt w cfg0.N) 2)

/-- So the result is `tail` of the pooled array of the weights of the label map and the flattened feature map. -/
theorem result (c : Dev nD) :
    Pipeline.afterTail₀ cfgs (dats m) 0 (V0 m) [hostOps1] c main_v18
      = tail (Cert.Pooled.pooled (weights (m ((c : Thread nD τ).loc main_arg1))) (features (m ((c : Thread nD τ).loc main_arg0)))) := by
  rw [tail_result, final, weights_entry, features_entry]

/-- Every weakly fair execution of the kernel's program terminates with its result at `tail` of the pooled features of
    the weights of the label map and the flattened feature map, and its arguments unchanged. -/
theorem run : θ_run defs (onTc (τ := τ) (main (F := Ideal))) ⟨m, fun _ => 0, ρ⟩ fun r => ∀ c : Dev nD,
      r.2.mem ((c.tc : Thread nD τ).loc main_v18)
        = tail (Cert.Pooled.pooled (weights (m ((c.tc : Thread nD τ).loc main_arg1))) (features (m ((c.tc : Thread nD τ).loc main_arg0))))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v18 (Pipeline.mem_restRefs_of main_v18 (by decide) (by decide))).trans (result m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.Pooling

end
-- ==== Proof.lean ====
/-
  A class-conditional pooling kernel against its jnp reference, over the extended reals.

  Both programs take a feature map [16, 512, 128, 128] and a label map [16, 128, 128]. From the label map both build,
  by the same operations, mean-pooling weights [16, 19, 16384]: per image and class a one-hot mask over the pixels,
  zeroed where the label is 255, divided by the class's pixel count (by 1 for an empty class). Both flatten the feature
  map to [16, 512, 16384]. The reference then contracts the pixel axis in one batched product; the kernel's program does
  it on a 16 × 2 grid, each point multiplying one image's [19, 16384] weights with 256 of its channels' [256, 16384]
  features into a [19, 256] block of the [16, 19, 512] output. Either way entry (b, k, c) is
      Σ_n weights (b, k, n) · features (b, c, n),
  the same finite sum of the same products, so the two arrays are equal on the extended reals with no appeal to
  finiteness. Both programs end by swapping the class and channel axes and adding a unit axis.

  The claims: the three programs run and leave their arguments unchanged (the two kernel programs by their generated
  frames, the reference by its run); the idealized kernel is the kernel's own text read over the extended reals (nothing
  was rewritten, so there is nothing to preserve); and the idealized kernel and the idealized reference, from memories
  that agree on the arguments, end with equal results.
-/
import proofs.«123771_j24910810317446_2_alg».proof.Defs
import proofs.«123771_j24910810317446_2_alg».proof.Proof.Gen.Kernel
import proofs.«123771_j24910810317446_2_alg».proof.Proof.Gen.Kernel.Skeleton
import proofs.«123771_j24910810317446_2_alg».proof.Proof.Gen.Kernel.Launch
import proofs.«123771_j24910810317446_2_alg».proof.Proof.Gen.Kernel.Points
import proofs.«123771_j24910810317446_2_alg».proof.Proof.Gen.Kernel.Frame
import proofs.«123771_j24910810317446_2_alg».proof.Proof.Gen.KernelIdeal
import proofs.«123771_j24910810317446_2_alg».proof.Proof.Gen.KernelIdeal.Skeleton
import proofs.«123771_j24910810317446_2_alg».proof.Proof.Gen.KernelIdeal.Launch
import proofs.«123771_j24910810317446_2_alg».proof.Proof.Gen.KernelIdeal.Points
import proofs.«123771_j24910810317446_2_alg».proof.Proof.Gen.KernelIdeal.Frame
import proofs.«123771_j24910810317446_2_alg».proof.Proof.Gen.ReferenceIdeal
import proofs.«123771_j24910810317446_2_alg».proof.Proof.Gen.Pre_finite_inputs
import proofs.«123771_j24910810317446_2_alg».proof.Proof.KernelRun
import proofs.«123771_j24910810317446_2_alg».proof.Proof.RefValue
import Idealize.ShloMosaic.Adequacy
import Idealize.ShloMosaic.Init

noncomputable section

namespace Cert.Proof

open Idealize.ShloMosaic Idealize.SL.Sem

/-- The kernel's program, word level: it runs and its arguments end unchanged. -/
theorem frame_kernel : Cert.frame_Kernel := fun m ρ _ => Cert.Kernel.Gen.frame m ρ

/-- The same program over the extended reals. -/
theorem frame_kernelIdeal : Cert.frame_KernelIdeal := fun m ρ _ => Cert.KernelIdeal.Gen.frame m ρ

/-- The reference runs and its arguments end unchanged: its run, with the result dropped. -/
theorem frame_referenceIdeal : Cert.frame_ReferenceIdeal := fun m ρ _ =>
  (θ_run Cert.ReferenceIdeal.defs _ _).mono (fun _ h c => (h c).2) (Cert.ReferenceIdeal.Pooling.run m ρ)

/-- Nothing of the kernel's text was rewritten on the way to the extended reals. -/
theorem preserves : Cert.preserves_Kernel_KernelIdeal := trivial

/-- Both results are the shared last two operations applied to the pooled array of the weights of the label map and
    the flattened feature map; the memories agree on the two maps. -/
theorem algebraic : Cert.algebraic_KernelIdeal_ReferenceIdeal := by
  intro m ρ m' ρ' _ hagree
  refine ⟨_, Cert.KernelIdeal.Pooling.run m ρ, ?_⟩
  refine (θ_run Cert.ReferenceIdeal.defs _ _).mono (fun _ h c => ⟨(h c).1.trans ?_, (h c).2⟩)
    (Cert.ReferenceIdeal.Pooling.run m' ρ')
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
